-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x1024 : Shape := ⟨3, ![4, 3, 1024]⟩
abbrev S4x3x32768 : Shape := ⟨3, ![4, 3, 32768]⟩
abbrev S_ : Shape := ⟨0, ![]⟩

class Facts : Prop where
  bcast_S_S4x3x1024 : S_.BroadcastsInDim S4x3x1024 (![] : Fin 0 → Fin S4x3x1024.rank)
  reducesTo_S4x3x1024_S_d0_1_2 : S4x3x1024.ReducesTo [0, 1, 2] S_
  h_S_ : 0 < S_.numel
  bcast_S_S4x3x32768 : S_.BroadcastsInDim S4x3x32768 (![] : Fin 0 → Fin S4x3x32768.rank)
  reducesTo_S4x3x32768_S_d0_1_2 : S4x3x32768.ReducesTo [0, 1, 2] S_

variable [Facts]

def fn {F : FTy → Type} [FloatOps F] (main_arg0 : FVec F S4x3x1024 .f32) (main_arg1 : FVec F S4x3x32768 .f32) : IVec S_ 1 :=
  let main_v0 : FVec F S4x3x1024 .f32 := Host.absf main_arg0
  let main_cst : FVec F S_ .f32 := constant S_ .f32 0x7F800000#32
  let main_v1 : FVec F S4x3x1024 .f32 := broadcastInDim S4x3x1024 ![] bcast_S_S4x3x1024 main_cst
  let main_v2 : IVec S4x3x1024 1 := cmpf .olt main_v0 main_v1
  let main_c : IVec S_ 1 := constantI S_ 1 1#1
  let main_v3 : IVec S_ 1 := (fun x v => Host.reduce IntOp.andi x v reducesTo_S4x3x1024_S_d0_1_2 h_S_) main_v2 main_c
  let main_v4 : FVec F S4x3x32768 .f32 := Host.absf main_arg1
  let main_cst_0 : FVec F S_ .f32 := constant S_ .f32 0x7F800000#32
  let main_v5 : FVec F S4x3x32768 .f32 := broadcastInDim S4x3x32768 ![] bcast_S_S4x3x32768 main_cst_0
  let main_v6 : IVec S4x3x32768 1 := cmpf .olt main_v4 main_v5
  let main_c_1 : IVec S_ 1 := constantI S_ 1 1#1
  let main_v7 : IVec S_ 1 := (fun x v => Host.reduce IntOp.andi x v reducesTo_S4x3x32768_S_d0_1_2 h_S_) main_v6 main_c_1
  let main_v8 : IVec S_ 1 := andi main_v3 main_v7
  main_v8
-- ==== Kernel.lean ====
abbrev S4x3x1024 : Shape := ⟨3, ![4, 3, 1024]⟩
abbrev S4x3x32768 : Shape := ⟨3, ![4, 3, 32768]⟩
abbrev S4x1024 : Shape := ⟨2, ![4, 1024]⟩
abbrev S4x3x256 : Shape := ⟨3, ![4, 3, 256]⟩
abbrev S4x3x2048 : Shape := ⟨3, ![4, 3, 2048]⟩
abbrev S4x256 : Shape := ⟨2, ![4, 256]⟩
abbrev S4x2048 : Shape := ⟨2, ![4, 2048]⟩
abbrev S4x256x2048 : Shape := ⟨3, ![4, 256, 2048]⟩
abbrev S4x1x2048 : Shape := ⟨3, ![4, 1, 2048]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S4x3x1024, .f32⟩
  | .hbm, ⟨1, _⟩ => ⟨S4x3x32768, .f32⟩
  | .hbm, ⟨2, _⟩ => ⟨S4x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S4x3x256, .f32⟩
  | .local _ .vmem, ⟨1, _⟩ => ⟨S4x3x256, .f32⟩
  | .local _ .vmem, ⟨2, _⟩ => ⟨S4x3x2048, .f32⟩
  | .local _ .vmem, ⟨3, _⟩ => ⟨S4x3x2048, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_13 : BitVec 32 := 0#32
  let v21 : BitVec 1 := Scalar.cmpi .ne v20 c0_i32_13
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S4x3x256_S4x3x256_0_0_0 : ∀ a, (![0, 0, 0] : Fin 3 → Nat) a + S4x3x256.size a ≤ S4x3x256.size a
  h_S4x3x256 : 0 < S4x3x256.numel
  inb_S4x3x2048_S4x3x2048_0_0_0 : ∀ a, (![0, 0, 0] : Fin 3 → Nat) a + S4x3x2048.size a ≤ S4x3x2048.size a
  h_S4x3x2048 : 0 < S4x3x2048.numel
  inb_S4x256_S4x256_0_0 : ∀ a, (![0, 0] : Fin 2 → Nat) a + S4x256.size a ≤ S4x256.size a
  h_S4x256 : 0 < S4x256.numel
  shapeCasts_S4x256_S4x256 : S4x256.ShapeCasts S4x256
  reduces_S4x3x2048_S4x2048 : S4x3x2048.Reduces [1] S4x2048
  shapeCasts_S4x2048_S4x1x2048 : S4x2048.ShapeCasts S4x1x2048
  broadcasts_S4x1x2048_S4x256x2048 : S4x1x2048.Broadcasts S4x256x2048
  reduces_S4x256x2048_S4x256 : S4x256x2048.Reduces [2] S4x256
  reduces_S4x3x256_S4x256 : S4x3x256.Reduces [1] S4x256
  reducesTo_S4x1024_S_d0_1 : S4x1024.ReducesTo [0, 1] S_
  h_S_ : 0 < S_.numel
  dot_S4x3x256_S4x3x2048_S4x256x2048_1_1_2_2_0_0_wf : DotDims.WF S4x3x256 S4x3x2048 S4x256x2048 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x256.size a ≤ S4x3x1024.size a
  hwx0_0 : ∀ i : grid0.Coords, EltTy.bits .f32 = 32 ∨ (Rect.block (s := S4x3x1024) S4x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x2048.size a ≤ S4x3x32768.size a
  hwx0_1 : ∀ i : grid0.Coords, EltTy.bits .f32 = 32 ∨ (Rect.block (s := S4x3x32768) S4x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x1024.size a
  hwx0_2 : ∀ i : grid0.Coords, EltTy.bits .f32 = 32 ∨ (Rect.block (s := S4x1024) S4x256.size (cc0_transform_2 i) (hinb0_2 i)).WholeWords (EltTy.packing .f32)

variable [Facts₀]

def dot_S4x3x256_S4x3x2048_S4x256x2048_1_1_2_2_0_0 : DotDims S4x3x256 S4x3x2048 S4x256x2048 where
  lhsContracting := [1]
  rhsContracting := [1]
  lhsNonContracting := [2]
  rhsNonContracting := [2]
  lhsBatch := [0]
  rhsBatch := [0]
  wf := dot_S4x3x256_S4x3x2048_S4x256x2048_1_1_2_2_0_0_wf

abbrev win0_0 : Pipeline.Window sig grid0 :=
  Pipeline.Window.ofSpec (Memref.whole main_arg0) S4x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x3x1024 : Shape := ⟨3, ![4, 3, 1024]⟩
abbrev S4x3x32768 : Shape := ⟨3, ![4, 3, 32768]⟩
abbrev S_ : Shape := ⟨0, ![]⟩
abbrev S4x1024 : Shape := ⟨2, ![4, 1024]⟩
abbrev S4x32768 : Shape := ⟨2, ![4, 32768]⟩
abbrev S4x1024x32768 : Shape := ⟨3, ![4, 1024, 32768]⟩
abbrev S4x1024x1 : Shape := ⟨3, ![4, 1024, 1]⟩
abbrev S4x1x32768 : Shape := ⟨3, ![4, 1, 32768]⟩

abbrev nBuf : Space → Nat
  | .hbm => 28
  | .vmem => 0
  | .smem => 0
  | _ => 0

abbrev bufTy : (tb : Table) → Fin (tcTables nBuf tb) → BufTy
  | .hbm, ⟨0, _⟩ => ⟨S4x3x1024, .f32⟩
  | .hbm, ⟨1, _⟩ => ⟨S4x3x32768, .f32⟩
  | .hbm, ⟨2, _⟩ => ⟨S4x3x1024, .f32⟩
  | .hbm, ⟨3, _⟩ => ⟨S_, .f32⟩
  | .hbm, ⟨4, _⟩ => ⟨S4x1024, .f32⟩
  | .hbm, ⟨5, _⟩ => ⟨S4x3x32768, .f32⟩
  | .hbm, ⟨6, _⟩ => ⟨S_, .f32⟩
  | .hbm, ⟨7, _⟩ => ⟨S4x32768, .f32⟩
  | .hbm, ⟨8, _⟩ => ⟨S4x1024x32768, .f32⟩
  | .hbm, ⟨9, _⟩ => ⟨S4x1024x1, .f32⟩
  | .hbm, ⟨10, _⟩ => ⟨S4x1x32768, .f32⟩
  | .hbm, ⟨11, _⟩ => ⟨S4x1024x32768, .f32⟩
  | .hbm, ⟨12, _⟩ => ⟨S4x1024x32768, .f32⟩
  | .hbm, ⟨13, _⟩ => ⟨S4x1024x32768, .f32⟩
  | .hbm, ⟨14, _⟩ => ⟨S_, .f32⟩
  | .hbm, ⟨15, _⟩ => ⟨S4x1024x32768, .f32⟩
  | .hbm, ⟨16, _⟩ => ⟨S4x1024x32768, .f32⟩
  | .hbm, ⟨17, _⟩ => ⟨S4x1024x32768, .f32⟩
  | .hbm, ⟨18, _⟩ => ⟨S_, .f32⟩
  | .hbm, ⟨19, _⟩ => ⟨S4x1024x32768, .f32⟩
  | .hbm, ⟨20, _⟩ => ⟨S4x1024x32768, .f32⟩
  | .hbm, ⟨21, _⟩ => ⟨S4x1024x32768, .f32⟩
  | .hbm, ⟨22, _⟩ => ⟨S_, .f32⟩
  | .hbm, ⟨23, _⟩ => ⟨S4x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S4x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S4x3x1024_S4x1024_d1 : S4x3x1024.ReducesTo [1] S4x1024
  h_S_ : 0 < S_.numel
  reducesTo_S4x3x32768_S4x32768_d1 : S4x3x32768.ReducesTo [1] S4x32768
  bcast_S4x1024_S4x1024x1_0_1 : S4x1024.BroadcastsInDim S4x1024x1 (![0, 1] : Fin 2 → Fin S4x1024x1.rank)
  bcast_S4x32768_S4x1x32768_0_2 : S4x32768.BroadcastsInDim S4x1x32768 (![0, 2] : Fin 2 → Fin S4x1x32768.rank)
  bcast_S4x1024x1_S4x1024x32768_0_1_2 : S4x1024x1.BroadcastsInDim S4x1024x32768 (![0, 1, 2] : Fin 3 → Fin S4x1024x32768.rank)
  bcast_S4x1x32768_S4x1024x32768_0_1_2 : S4x1x32768.BroadcastsInDim S4x1024x32768 (![0, 1, 2] : Fin 3 → Fin S4x1024x32768.rank)
  bcast_S_S4x1024x32768 : S_.BroadcastsInDim S4x1024x32768 (![] : Fin 0 → Fin S4x1024x32768.rank)
  reducesTo_S4x1024x32768_S4x1024_d2 : S4x1024x32768.ReducesTo [2] S4x1024
  reducesTo_S4x1024_S_d0_1 : S4x1024.ReducesTo [0, 1] S_
  dot_S4x3x1024_S4x3x32768_S4x1024x32768_1_1_2_2_0_0_wf : DotDims.WF S4x3x1024 S4x3x32768 S4x1024x32768 [1] [1] [2] [2] [0] [0]

variable [Facts₀]

def dot_S4x3x1024_S4x3x32768_S4x1024x32768_1_1_2_2_0_0 : DotDims S4x3x1024 S4x3x32768 S4x1024x32768 where
  lhsContracting := [1]
  rhsContracting := [1]
  lhsNonContracting := [2]
  rhsNonContracting := [2]
  lhsBatch := [0]
  rhsBatch := [0]
  wf := dot_S4x3x1024_S4x3x32768_S4x1024x32768_1_1_2_2_0_0_wf

class Facts : Prop extends Facts₀ where

variable [Facts]
-- ==== Proof.LibMinLaws.lean ====
/-
  Order facts about minima of extended reals, used to compare a minimum taken tile by tile, with a
  monotone map applied once at the end, against one minimum of the mapped values.

  * a fold of `min` from `⊤` over a finite index type is the infimum;
  * the infimum over the first `w·(j+1)` entries of a family on `Fin (w·q)` is the infimum over the first
    `w·j` entries met with the infimum over block `j`;
  * a monotone map commutes with the infimum of a finite non-empty family (the infimum is attained);
  * the square root on the extended reals is monotone.
-/
import Idealize.ShloMosaic.PureOps.Ideal
import Mathlib.Order.ConditionallyCompleteLattice.Finset
import Mathlib.Data.Finset.Fold

noncomputable section

namespace Cert.MinLaws

open Idealize.ShloMosaic

/-- Folding `min` from `⊤` over all of a finite type gives the infimum of the family. -/
theorem fold_min_top {ι : Type} [Fintype ι] (f : ι → EReal) :
    (Finset.univ : Finset ι).fold min ⊤ f = ⨅ k, f k := by
  apply le_antisymm
  · exact le_iInf fun k => (Finset.fold_min_le _).mpr (Or.inr ⟨k, Finset.mem_univ _, le_rfl⟩)
  · exact (Finset.le_fold_min _).mpr ⟨le_top, fun k _ => iInf_le f k⟩

/-- No entry lies before position `0`: the infimum over the empty prefix is `⊤`. -/
theorem iInf_prefix_zero {N : ℕ} (w : ℕ) (h : Fin N → EReal) :
    (⨅ n : Fin N, if n.val < w * 0 then h n else ⊤) = ⊤ :=
  iInf_eq_top.mpr fun n => if_neg (by omega)

/-- The prefix of length `w·(j+1)` is the prefix of length `w·j` followed by block `j`: the infimum over it is
    the smaller of the two infima. -/
theorem iInf_prefix_succ {N : ℕ} (w j : ℕ) (hj : w * (j + 1) ≤ N) (h : Fin N → EReal) :
    (⨅ n : Fin N, if n.val < w * (j + 1) then h n else ⊤)
      = min (⨅ n : Fin N, if n.val < w * j then h n else ⊤)
            (⨅ k : Fin w, h ⟨w * j + k.val, by have := k.isLt; rw [Nat.mul_succ] at hj; omega⟩) := by
  have hw : w * (j + 1) = w * j + w := Nat.mul_succ w j
  apply le_antisymm
  · refine le_min (le_iInf fun n => ?_) (le_iInf fun k => ?_)
    · by_cases hn : n.val < w * j
      · rw [if_pos hn]
        exact iInf_le_of_le n (le_of_eq (if_pos (by omega)))
      · rw [if_neg hn]; exact le_top
    · exact iInf_le_of_le ⟨w * j + k.val, by have := k.isLt; omega⟩
        (le_of_eq (if_pos (by have := k.isLt; show w * j + k.val < w * (j + 1); omega)))
  · refine le_iInf fun n => ?_
    by_cases hn1 : n.val < w * (j + 1)
    · rw [if_pos hn1]
      by_cases hn : n.val < w * j
      · exact (min_le_left _ _).trans (iInf_le_of_le n (le_of_eq (if_pos hn)))
      · exact (min_le_right _ _).trans (iInf_le_of_le ⟨n.val - w * j, by omega⟩
          (le_of_eq (congrArg h (Fin.ext (by show w * j + (n.val - w * j) = n.val; omega)))))
    · rw [if_neg hn1]; exact le_top

/-- When the prefix is everything, the guard disappears. -/
theorem iInf_prefix_all {N : ℕ} (L : ℕ) (hL : N ≤ L) (h : Fin N → EReal) :
    (⨅ n : Fin N, if n.val < L then h n else ⊤) = ⨅ n : Fin N, h n :=
  iInf_congr fun n => if_pos (lt_of_lt_of_le n.isLt hL)

/-- A monotone map of the extended reals commutes with the infimum of a finite non-empty family: the
    infimum is one of the family's values. -/
theorem map_iInf_of_monotone {ι : Type} [Finite ι] [Nonempty ι] {f : EReal → EReal} (hf : Monotone f)
    (a : ι → EReal) : f (⨅ i, a i) = ⨅ i, f (a i) := by
  obtain ⟨i₀, h⟩ := exists_eq_ciInf_of_finite (f := a)
  apply le_antisymm
  · exact le_iInf fun i => hf (iInf_le a i)
  · rw [← h]; exact iInf_le (fun i => f (a i)) i₀

/-- The square root of the extended reals (`⊥` below zero, `√⊤ = ⊤`) is monotone. -/
theorem sqrt_mono : Monotone Ideal.sqrt := by
  intro x y hxy
  induction x using EReal.rec with
  | bot => rw [Ideal.sqrt_bot]; exact bot_le
  | top => rw [top_le_iff.mp hxy]
  | coe r =>
    induction y using EReal.rec with
    | bot => exact absurd hxy (by simp)
    | top => rw [Ideal.sqrt_top]; exact le_top
    | coe s =>
      have hrs : r ≤ s := EReal.coe_le_coe_iff.mp hxy
      rw [Ideal.sqrt_coe, Ideal.sqrt_coe]
      split_ifs with h1 h2 h2
      · exact le_rfl
      · exact bot_le
      · exact absurd (lt_of_le_of_lt hrs h2) h1
      · exact EReal.coe_le_coe_iff.mpr (Real.sqrt_le_sqrt hrs)

/-- Adding a fixed value, clamping below at zero and taking the square root is monotone. -/
theorem sqrt_clamp_add_mono (k z : EReal) : Monotone fun x : EReal => Ideal.sqrt (max (x + k) z) :=
  fun _ _ h => sqrt_mono (max_le_max (add_le_add h le_rfl) le_rfl)

end Cert.MinLaws

end
-- ==== Proof.LibFloatWords.lean ====
/-
  The extended reals a few f32 words denote: +∞, 2 and -2.
-/
import Idealize.ShloMosaic.PureOps.Ideal

noncomputable section

namespace Cert.FloatWords

open Idealize.ShloMosaic

/-- The word of f32's `+inf` denotes `⊤`. -/
theorem ofBits_inf : Ideal.ofBits .f32 0x7F800000#32 = ⊤ := by
  simp [Ideal.ofBits, Ideal.ieee]

/-- The word of `2.0` denotes the real `2`. -/
theorem ofBits_two : Ideal.ofBits .f32 0x40000000#32 = ((2 : ℝ) : EReal) := by
  simp [Ideal.ofBits, Ideal.ieee, -EReal.coe_mul]; norm_num

/-- The word of `-2.0` denotes the real `-2`. -/
theorem ofBits_neg_two : Ideal.ofBits .f32 0xC0000000#32 = ((-2 : ℝ) : EReal) := by
  simp [Ideal.ofBits, Ideal.ieee, -EReal.coe_mul]; norm_num

end Cert.FloatWords

end
-- ==== Proof.TileValues.lean ====
/-
  What one visit of the kernel body computes, element by element, on the extended reals.

  With a keypoint tile `k` ([4,3,256]), a cloud tile `p` ([4,3,2048]) and the running minimum `acc` ([4,256]):
    * the reset value is `⊤` everywhere;
    * the new running minimum at `(b, r)` is `min (acc (b,r)) (⨅ n, (∑_d p(b,d,n)²) + ∑_d (k(b,d,r)·(-2))·p(b,d,n))`;
    * the value written out at `(b, r)` is `√(max (acc (b,r) + ∑_d k(b,d,r)²) 0)`.
  The lane sums, the minimum over the last axis and the batched product are read at an index one operation at a time.
-/
import proofs.«161584_j27642409517714_2_alg».proof.Proof.Gen.KernelIdeal.Skeleton
import proofs.«161584_j27642409517714_2_alg».proof.Proof.LibMinLaws
import proofs.«161584_j27642409517714_2_alg».proof.Proof.LibFloatWords
import Idealize.ShloMosaic.Lib.ValueIdx
import Idealize.ShloMosaic.Lib.Pipeline.Value
import Idealize.ShloMosaic.PureOps.Ideal.Laws

noncomputable section

namespace Cert.KernelIdeal.TileValues

open Idealize.ShloMosaic Idealize.ShloMosaic.ValueIdx Cert.KernelIdeal Cert.KernelIdeal.Gen

/-- A sum over the middle axis (of extent 3) of an `[A, 3, B]` array, at `(a, b)`, is the sum of the three entries `(a, d, b)`. -/
theorem sum_mid {A B : ℕ} (src : FVec Ideal ⟨3, ![A, 3, B]⟩ .f32) (h : Shape.Reduces ⟨3, ![A, 3, B]⟩ [1] ⟨2, ![A, B]⟩)
    (hφ : FKind.Formats .f32) (hacc : (0x00000000#32 : BitVec 32) = FKind.add.neutral .f32 hφ) (a : Fin A) (b : Fin B) :
    multiReduction .add [1] ⟨2, ![A, B]⟩ src 0x00000000#32 h hφ hacc (ix2 a b) = ∑ d : Fin 3, src (ix3 a d b) :=
  (Ideal.multiReduction_add_single src _ h hφ hacc (ix2 a b)).trans
    (Finset.sum_congr rfl fun d _ => congrArg src (funext fun c => Fin.ext (by
      match c with | ⟨0, _⟩ => rfl | ⟨1, _⟩ => rfl | ⟨2, _⟩ => rfl)))

/-- A minimum over the last axis of an `[A, B, C]` array from `+∞`, at `(a, b)`, is the infimum of the entries `(a, b, n)`. -/
theorem min_last {A B C : ℕ} (src : FVec Ideal ⟨3, ![A, B, C]⟩ .f32) (h : Shape.Reduces ⟨3, ![A, B, C]⟩ [2] ⟨2, ![A, B]⟩)
    (hφ : FKind.Formats .f32) (hacc : (0x7F800000#32 : BitVec 32) = FKind.minimumf.neutral .f32 hφ) (a : Fin A) (b : Fin B) :
    multiReduction .minimumf [2] ⟨2, ![A, B]⟩ src 0x7F800000#32 h hφ hacc (ix2 a b) = ⨅ n : Fin C, src (ix3 a b n) := by
  rw [multiReduction_minimumf_eq_fold]
  refine (h.fold_filter_drop_single _ _ src (ix2 a b)).trans ?_
  have e1 : (src ∘ h.lift (ix2 a b)) = fun n : Fin C => src (ix3 a b n) :=
    funext fun n => congrArg src (funext fun c => Fin.ext (by
      match c with | ⟨0, _⟩ => rfl | ⟨1, _⟩ => rfl | ⟨2, _⟩ => rfl))
  show Finset.fold min (Ideal.ofBits .f32 0x7F800000#32) (src ∘ h.lift (ix2 a b)) (Finset.univ : Finset (Fin C)) = _
  rw [e1, Cert.FloatWords.ofBits_inf]
  exact Cert.MinLaws.fold_min_top _

/-- An `[A, B]` array viewed as `[A, 1, B]` reads `(a, b)` at `(a, u, b)`. -/
theorem cast_mid_unit {α : Type} {A B : ℕ} (x : (⟨2, ![A, B]⟩ : Shape).Idx → α)
    (h : (⟨2, ![A, B]⟩ : Shape).ShapeCasts ⟨3, ![A, 1, B]⟩) (a : Fin A) (u : Fin 1) (b : Fin B) :
    shapeCast ⟨3, ![A, 1, B]⟩ x h (ix3 a u b) = x (ix2 a b) :=
  shapeCast_apply x h _ _ (by
    have hu : u.val = 0 := by omega
    rw [Shape.rowMajor_val_three, Shape.rowMajor_val_two]
    show a.val * B + b.val = (a.val * 1 + u.val) * B + b.val
    rw [hu, Nat.mul_one, Nat.add_zero])

/-- An `[A, 1, C]` array repeated along its middle axis to `[A, B, C]` reads `(a, 0, c)` at `(a, p, c)`. -/
theorem bcast_mid {α : Type} {A B C : ℕ} (v : (⟨3, ![A, 1, C]⟩ : Shape).Idx → α)
    (h : (⟨3, ![A, 1, C]⟩ : Shape).Broadcasts ⟨3, ![A, B, C]⟩) (a : Fin A) (p : Fin B) (c : Fin C) :
    broadcastTo ⟨3, ![A, B, C]⟩ v h (ix3 a p c) = v (ix3 a (0 : Fin 1) c) := by
  refine broadcastTo_apply v h (ix3 a p c) (ix3 a (0 : Fin 1) c) fun ax => ?_
  match ax with
  | ⟨0, _⟩ =>
    show a.val = if A = 1 then 0 else a.val
    split
    · have := a.isLt; omega
    · rfl
  | ⟨1, _⟩ => rfl
  | ⟨2, _⟩ =>
    show c.val = if C = 1 then 0 else c.val
    split
    · have := c.isLt; omega
    · rfl

/-! ### The batched product `bdm,bdn->bmn` of a tile pair -/

theorem lhs_c0 (i : S4x256x2048.Idx) (q : dot_S4x3x256_S4x3x2048_S4x256x2048_1_1_2_2_0_0.contr.Idx) :
    (dot_S4x3x256_S4x3x2048_S4x256x2048_1_1_2_2_0_0.lhsIdx i q 0).val = (i 0).val := by
  unfold DotDims.lhsIdx
  rw [dif_pos (show (0 : Fin S4x3x256.rank) ∈ dot_S4x3x256_S4x3x2048_S4x256x2048_1_1_2_2_0_0.lhsBatch by decide)]
  rfl
theorem lhs_c1 (i : S4x256x2048.Idx) (q : dot_S4x3x256_S4x3x2048_S4x256x2048_1_1_2_2_0_0.contr.Idx) :
    (dot_S4x3x256_S4x3x2048_S4x256x2048_1_1_2_2_0_0.lhsIdx i q 1).val = (q ⟨0, by decide⟩).val :=
  dot_S4x3x256_S4x3x2048_S4x256x2048_1_1_2_2_0_0.lhsIdx_val_of_single rfl i q
theorem lhs_c2 (i : S4x256x2048.Idx) (q : dot_S4x3x256_S4x3x2048_S4x256x2048_1_1_2_2_0_0.contr.Idx) :
    (dot_S4x3x256_S4x3x2048_S4x256x2048_1_1_2_2_0_0.lhsIdx i q 2).val = (i 1).val := by
  unfold DotDims.lhsIdx
  rw [dif_neg (show ¬(2 : Fin S4x3x256.rank) ∈ dot_S4x3x256_S4x3x2048_S4x256x2048_1_1_2_2_0_0.lhsBatch by decide), dif_pos (show (2 : Fin S4x3x256.rank) ∈ dot_S4x3x256_S4x3x2048_S4x256x2048_1_1_2_2_0_0.lhsNonContracting by decide)]
  rfl
theorem rhs_c0 (i : S4x256x2048.Idx) (q : dot_S4x3x256_S4x3x2048_S4x256x2048_1_1_2_2_0_0.contr.Idx) :
    (dot_S4x3x256_S4x3x2048_S4x256x2048_1_1_2_2_0_0.rhsIdx i q 0).val = (i 0).val := by
  unfold DotDims.rhsIdx
  rw [dif_pos (show (0 : Fin S4x3x2048.rank) ∈ dot_S4x3x256_S4x3x2048_S4x256x2048_1_1_2_2_0_0.rhsBatch by decide)]
  rfl
theorem rhs_c1 (i : S4x256x2048.Idx) (q : dot_S4x3x256_S4x3x2048_S4x256x2048_1_1_2_2_0_0.contr.Idx) :
    (dot_S4x3x256_S4x3x2048_S4x256x2048_1_1_2_2_0_0.rhsIdx i q 1).val = (q ⟨0, by decide⟩).val :=
  dot_S4x3x256_S4x3x2048_S4x256x2048_1_1_2_2_0_0.rhsIdx_val_of_single rfl i q
theorem rhs_c2 (i : S4x256x2048.Idx) (q : dot_S4x3x256_S4x3x2048_S4x256x2048_1_1_2_2_0_0.contr.Idx) :
    (dot_S4x3x256_S4x3x2048_S4x256x2048_1_1_2_2_0_0.rhsIdx i q 2).val = (i 2).val := by
  unfold DotDims.rhsIdx
  rw [dif_neg (show ¬(2 : Fin S4x3x2048.rank) ∈ dot_S4x3x256_S4x3x2048_S4x256x2048_1_1_2_2_0_0.rhsBatch by decide), dif_pos (show (2 : Fin S4x3x2048.rank) ∈ dot_S4x3x256_S4x3x2048_S4x256x2048_1_1_2_2_0_0.rhsNonContracting by decide)]
  rfl

/-- The matrix unit's product of a `[4,3,256]` tile with a `[4,3,2048]` tile into zero, at `(b, r, n)`: the three products
    over the shared axis. -/
theorem product_at (l : FVec Ideal S4x3x256 .f32) (r : FVec Ideal S4x3x2048 .f32) (b : Fin 4) (p : Fin 256) (n : Fin 2048) :
    matmul dot_S4x3x256_S4x3x2048_S4x256x2048_1_1_2_2_0_0 (some .fp32) l r (constant S4x256x2048 .f32 0x00000000#32) (ix3 b p n)
      = ∑ d : Fin 3, l (ix3 b d p) * r (ix3 b d n) := by
  simp only [matmul]
  rw [Ideal.matmul_constant_zero_apply, ← Equiv.sum_comp (ValueIdx.contrEquiv1 dot_S4x3x256_S4x3x2048_S4x256x2048_1_1_2_2_0_0 3 rfl rfl).symm]
  refine Finset.sum_congr rfl fun k _ => ?_
  have hk := ValueIdx.contrEquiv1_symm_val dot_S4x3x256_S4x3x2048_S4x256x2048_1_1_2_2_0_0 3 rfl rfl k
  have el : dot_S4x3x256_S4x3x2048_S4x256x2048_1_1_2_2_0_0.lhsIdx (ix3 b p n) ((ValueIdx.contrEquiv1 dot_S4x3x256_S4x3x2048_S4x256x2048_1_1_2_2_0_0 3 rfl rfl).symm k) = ix3 b k p := funext fun a => Fin.ext (by
    match a with
    | ⟨0, _⟩ => exact lhs_c0 _ _
    | ⟨1, _⟩ => exact (lhs_c1 _ _).trans hk
    | ⟨2, _⟩ => exact lhs_c2 _ _)
  have er : dot_S4x3x256_S4x3x2048_S4x256x2048_1_1_2_2_0_0.rhsIdx (ix3 b p n) ((ValueIdx.contrEquiv1 dot_S4x3x256_S4x3x2048_S4x256x2048_1_1_2_2_0_0 3 rfl rfl).symm k) = ix3 b k n := funext fun a => Fin.ext (by
    match a with
    | ⟨0, _⟩ => exact rhs_c0 _ _
    | ⟨1, _⟩ => exact (rhs_c1 _ _).trans hk
    | ⟨2, _⟩ => exact rhs_c2 _ _)
  rw [el, er]

/-! ### The three stored values -/

/-- The part of the squared distance from keypoint `r` of the tile to cloud point `n` of the tile that depends on the
    cloud point: `|p|² + ⟨-2·k, p⟩`. -/
def cloudTerm (k : FVec Ideal S4x3x256 .f32) (p : FVec Ideal S4x3x2048 .f32) (b : Fin 4) (r : Fin 256) (n : Fin 2048) : EReal :=
  (∑ d : Fin 3, p (ix3 b d n) * p (ix3 b d n)) + ∑ d : Fin 3, (k (ix3 b d r) * Ideal.ofBits .f32 0xC0000000#32) * p (ix3 b d n)

/-- The reset stores `+∞` everywhere. -/
theorem reset_at (b : Fin 4) (r : Fin 256) : k0_pay1 (F := Ideal) (ix2 b r) = ⊤ := by
  unfold k0_pay1
  rw [shapeCast_self]
  exact Cert.FloatWords.ofBits_inf

/-- The running minimum after a visit: the old one met with the tile's smallest cloud-dependent term. -/
theorem update_at (k : Vec Ideal S4x3x256 .f32) (p : Vec Ideal S4x3x2048 .f32) (acc : Vec Ideal S4x256 .f32) (b : Fin 4) (r : Fin 256) :
    k0_pay2 (F := Ideal) k p acc (ix2 b r) = min (acc (ix2 b r)) (⨅ n : Fin 2048, cloudTerm k p b r n) := by
  unfold k0_pay2
  dsimp only
  rw [shapeCast_self]
  show min (acc (ix2 b r)) _ = _
  refine congrArg (min (acc (ix2 b r))) ?_
  refine (min_last _ _ _ _ b r).trans (iInf_congr fun n => ?_)
  show _ + _ = _
  unfold cloudTerm
  refine congrArg₂ (· + ·) ?_ ?_
  · refine (bcast_mid _ _ b r n).trans ((cast_mid_unit _ _ b 0 n).trans ?_)
    exact sum_mid _ _ _ _ b n
  · exact product_at _ _ b r n

/-- The value written out: the square root of the running minimum plus the keypoint's squared length, clamped at zero. -/
theorem emit_at (k : Vec Ideal S4x3x256 .f32) (acc : Vec Ideal S4x256 .f32) (b : Fin 4) (r : Fin 256) :
    k0_pay3 (F := Ideal) k acc (ix2 b r)
      = Ideal.sqrt (max (acc (ix2 b r) + ∑ d : Fin 3, k (ix3 b d r) * k (ix3 b d r)) (Ideal.ofBits .f32 0x00000000#32)) := by
  unfold k0_pay3
  dsimp only
  show Ideal.sqrt (max (acc (ix2 b r) + _) _) = _
  exact congrArg (fun z => Ideal.sqrt (max (acc (ix2 b r) + z) (Ideal.ofBits .f32 0x00000000#32))) (sum_mid _ _ _ _ b r)

end Cert.KernelIdeal.TileValues

end
-- ==== Proof.VisitResults.lean ====
/-
  What each kind of visit leaves behind, as values: the grid visits a keypoint tile sixteen times, once per cloud tile.
    * the first visit of a keypoint tile resets the running minimum to +∞ and then updates it;
    * a middle visit updates the running minimum it finds;
    * the last visit updates it and writes out the distances computed from the updated minimum.
  Each is the body's stored value of the tiles the visit was handed (and of the running minimum before it).
-/
import proofs.«161584_j27642409517714_2_alg».proof.Proof.Gen.KernelIdeal.Frame
import Idealize.ShloMosaic.Lib.Pipeline.Value
import Idealize.ShloMosaic.Lib.Tactic

noncomputable section

namespace Cert.KernelIdeal.VisitResults

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First visit: the running minimum ends at the update of the reset value. -/
theorem first_acc (c : Dev nD) (i : grid0.Coords) (arg2 : Memref sig .tc .vmem S4x3x256 .f32) (harg2 : arg2.IsWhole) (arg3 : Memref sig .tc .vmem S4x3x2048 .f32) (harg3 : arg3.IsWhole) (arg4 : Memref sig .tc .vmem S4x256 .f32) (harg4 : arg4.IsWhole) (arg5 : Memref sig .tc .vmem S4x256 .f32) (harg5 : arg5.IsWhole) (hc0 : cond0_0 i) (hc1 : ¬cond0_1 i)
    (x0 : Vec F S4x3x256 .f32) (x1 : Vec F S4x3x2048 .f32) :
    sout0_A_0 c i arg2 harg2 arg3 harg3 arg4 harg4 arg5 harg5 hc0 hc1 x0 x1 = k0_pay2 x0 x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S4x256) hz2, View.readCov_unit_zero (S := S4x256) _ hz2]
  simp only [View.readAt_eq_ld, harg2.read_unread, harg3.read_unread, harg5.read_unread, View.ld_unit_zero (S := S4x3x256) hz3, View.ld_unit_zero (S := S4x3x2048) hz3, View.ld_unit_zero (S := S4x256) hz2]

/-- Middle visit: the running minimum ends at the update of the one before. -/
theorem middle_acc (c : Dev nD) (i : grid0.Coords) (arg2 : Memref sig .tc .vmem S4x3x256 .f32) (harg2 : arg2.IsWhole) (arg3 : Memref sig .tc .vmem S4x3x2048 .f32) (harg3 : arg3.IsWhole) (arg4 : Memref sig .tc .vmem S4x256 .f32) (harg4 : arg4.IsWhole) (arg5 : Memref sig .tc .vmem S4x256 .f32) (harg5 : arg5.IsWhole) (hc0 : ¬cond0_0 i) (hc1 : ¬cond0_1 i)
    (x0 : Vec F S4x3x256 .f32) (x1 : Vec F S4x3x2048 .f32) (xs0 : Vec F S4x256 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S4x256) hz2]
  simp only [View.readAt_eq_ld, harg2.read_unread, harg3.read_unread, harg5.read_unread, View.ld_unit_zero (S := S4x3x256) hz3, View.ld_unit_zero (S := S4x3x2048) hz3, View.ld_unit_zero (S := S4x256) hz2]

/-- Last visit: the running minimum ends at the update of the one before, -/
theorem last_acc (c : Dev nD) (i : grid0.Coords) (arg2 : Memref sig .tc .vmem S4x3x256 .f32) (harg2 : arg2.IsWhole) (arg3 : Memref sig .tc .vmem S4x3x2048 .f32) (harg3 : arg3.IsWhole) (arg4 : Memref sig .tc .vmem S4x256 .f32) (harg4 : arg4.IsWhole) (arg5 : Memref sig .tc .vmem S4x256 .f32) (harg5 : arg5.IsWhole) (hc0 : ¬cond0_0 i) (hc1 : cond0_1 i)
    (x0 : Vec F S4x3x256 .f32) (x1 : Vec F S4x3x2048 .f32) (xs0 : Vec F S4x256 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S4x256) hz2]
  simp only [View.readAt_eq_ld, harg2.read_unread, harg3.read_unread, harg5.read_unread, View.ld_unit_zero (S := S4x3x256) hz3, View.ld_unit_zero (S := S4x3x2048) hz3, View.ld_unit_zero (S := S4x256) hz2]

/-- and the block written out is computed from that updated minimum. -/
theorem last_out (c : Dev nD) (i : grid0.Coords) (arg2 : Memref sig .tc .vmem S4x3x256 .f32) (harg2 : arg2.IsWhole) (arg3 : Memref sig .tc .vmem S4x3x2048 .f32) (harg3 : arg3.IsWhole) (arg4 : Memref sig .tc .vmem S4x256 .f32) (harg4 : arg4.IsWhole) (arg5 : Memref sig .tc .vmem S4x256 .f32) (harg5 : arg5.IsWhole) (hc0 : ¬cond0_0 i) (hc1 : cond0_1 i)
    (x0 : Vec F S4x3x256 .f32) (x1 : Vec F S4x3x2048 .f32) (xs0 : Vec F S4x256 .f32) :
    out0_C_2 c i arg2 harg2 arg3 harg3 arg4 harg4 arg5 harg5 hc0 hc1 x0 x1 xs0 = k0_pay3 x0 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S4x256) hz2, View.readCov_unit_zero (S := S4x256) _ hz2]
  simp only [View.readAt_eq_ld, harg2.read_unread, harg3.read_unread, harg5.read_unread, View.ld_unit_zero (S := S4x3x256) hz3, View.ld_unit_zero (S := S4x3x2048) hz3, View.ld_unit_zero (S := S4x256) hz2]

end Cert.KernelIdeal.VisitResults

end
-- ==== Proof.NearestSpec.lean ====
/-
  The distance from each keypoint to its nearest cloud point, as one function of the two argument arrays
  `K` ([4,3,1024]: batch, coordinate, keypoint) and `P` ([4,3,32768]: batch, coordinate, cloud point), on the extended reals.

  Two arrangements of it:
    * `nearestAt`: the minimum over the cloud of `|p|² + ⟨-2·k, p⟩` is taken first, then `|k|²` is added, the sum clamped
      at zero and its square root taken once;
    * `directAt`: the minimum over the cloud of `√(max ((|k|² + |p|²) - 2·⟨k, p⟩) 0)`.
  When every entry of `K` and `P` is a real number the two agree: `x ↦ √(max (x + |k|²) 0)` is monotone, so it commutes
  with the minimum of the finitely many cloud terms, and for reals `|p|² + ⟨-2·k, p⟩ + |k|² = (|k|² + |p|²) - 2·⟨k, p⟩`.
-/
import proofs.«161584_j27642409517714_2_alg».proof.Proof.LibMinLaws
import proofs.«161584_j27642409517714_2_alg».proof.Proof.LibFloatWords
import Idealize.ShloMosaic.Lib.ValueIdx
import Idealize.ShloMosaic.PureOps.Ideal.Laws

noncomputable section

namespace Cert.Nearest

open Idealize.ShloMosaic Idealize.ShloMosaic.ValueIdx

abbrev SK : Shape := ⟨3, ![4, 3, 1024]⟩
abbrev SP : Shape := ⟨3, ![4, 3, 32768]⟩
abbrev SD : Shape := ⟨2, ![4, 1024]⟩

/-- The part of the squared distance from keypoint `mc` to cloud point `q` that depends on the cloud point:
    `|p|² + ⟨-2·k, p⟩`. -/
def far (K : SK.Idx → EReal) (P : SP.Idx → EReal) (b : Fin 4) (mc : Fin 1024) (q : Fin 32768) : EReal :=
  (∑ d : Fin 3, P (ix3 b d q) * P (ix3 b d q))
    + ∑ d : Fin 3, (K (ix3 b d mc) * Ideal.ofBits .f32 0xC0000000#32) * P (ix3 b d q)

/-- Nearest distance, the minimum taken before the square root. -/
def nearestAt (K : SK.Idx → EReal) (P : SP.Idx → EReal) (b : Fin 4) (mc : Fin 1024) : EReal :=
  Ideal.sqrt (max ((⨅ q : Fin 32768, far K P b mc q) + ∑ d : Fin 3, K (ix3 b d mc) * K (ix3 b d mc))
    (Ideal.ofBits .f32 0x00000000#32))

/-- Nearest distance, the minimum of the distances. -/
def directAt (K : SK.Idx → EReal) (P : SP.Idx → EReal) (b : Fin 4) (mc : Fin 1024) : EReal :=
  ⨅ q : Fin 32768, Ideal.sqrt (max
    (((Ideal.ofBits .f32 0x00000000#32 + ∑ d : Fin 3, K (ix3 b d mc) * K (ix3 b d mc))
        + (Ideal.ofBits .f32 0x00000000#32 + ∑ d : Fin 3, P (ix3 b d q) * P (ix3 b d q)))
      - Ideal.ofBits .f32 0x40000000#32 * ∑ d : Fin 3, K (ix3 b d mc) * P (ix3 b d q))
    (Ideal.ofBits .f32 0x00000000#32))

/-- The array of nearest distances. -/
def nearest (K : SK.Idx → EReal) (P : SP.Idx → EReal) : SD.Idx → EReal := fun j => nearestAt K P (j 0) (j 1)

/-- For real coordinates: `|p|² + ⟨-2·k, p⟩ + |k|² = (0 + |k|²) + (0 + |p|²) - 2·⟨k, p⟩`. -/
theorem expand_square (a p : Fin 3 → ℝ) :
    ((∑ d : Fin 3, (p d : EReal) * (p d : EReal)) + ∑ d : Fin 3, ((a d : EReal) * ((-2 : ℝ) : EReal)) * (p d : EReal))
        + ∑ d : Fin 3, (a d : EReal) * (a d : EReal)
      = ((0 + ∑ d : Fin 3, (a d : EReal) * (a d : EReal)) + (0 + ∑ d : Fin 3, (p d : EReal) * (p d : EReal)))
        - ((2 : ℝ) : EReal) * ∑ d : Fin 3, (a d : EReal) * (p d : EReal) := by
  simp only [Fin.sum_univ_three, zero_add, ← EReal.coe_mul, ← EReal.coe_add, ← EReal.coe_sub]
  exact congrArg _ (by ring)

/-- With real entries the two arrangements give the same distance. -/
theorem nearestAt_eq_directAt (K : SK.Idx → EReal) (P : SP.Idx → EReal)
    (hK : ∀ i, K i ≠ ⊤ ∧ K i ≠ ⊥) (hP : ∀ i, P i ≠ ⊤ ∧ P i ≠ ⊥) (b : Fin 4) (mc : Fin 1024) :
    nearestAt K P b mc = directAt K P b mc := by
  unfold nearestAt directAt
  refine (Cert.MinLaws.map_iInf_of_monotone
    (Cert.MinLaws.sqrt_clamp_add_mono (∑ d : Fin 3, K (ix3 b d mc) * K (ix3 b d mc)) (Ideal.ofBits .f32 0x00000000#32))
    (fun q => far K P b mc q)).trans (iInf_congr fun q => ?_)
  refine congrArg (fun v => Ideal.sqrt (max v (Ideal.ofBits .f32 0x00000000#32))) ?_
  obtain ⟨a, ha⟩ : ∃ a : Fin 3 → ℝ, ∀ d, K (ix3 b d mc) = (a d : EReal) :=
    ⟨fun d => (K (ix3 b d mc)).toReal, fun d => (EReal.coe_toReal (hK _).1 (hK _).2).symm⟩
  obtain ⟨p, hp⟩ : ∃ p : Fin 3 → ℝ, ∀ d, P (ix3 b d q) = (p d : EReal) :=
    ⟨fun d => (P (ix3 b d q)).toReal, fun d => (EReal.coe_toReal (hP _).1 (hP _).2).symm⟩
  unfold far
  simp only [ha, hp, Cert.FloatWords.ofBits_neg_two, Cert.FloatWords.ofBits_two, Ideal.ofBits_zero_f32]
  exact expand_square a p

end Cert.Nearest

end
-- ==== Proof.RunningMin.lean ====
/-
  The running minimum across the grid, in terms of the whole argument arrays.

  Point `t` of the 4 × 16 grid works on keypoint tile `t / 16` (keypoints `256·(t/16) … 256·(t/16) + 255`) and cloud
  tile `t % 16` (cloud points `2048·(t%16) … 2048·(t%16) + 2047`). After point `t` the carried buffer holds, at
  `(b, r)`, the minimum of the cloud-dependent term of keypoint `256·(t/16) + r` over the first `2048·(t%16 + 1)` cloud
  points: by induction on the point, the minimum over a longer prefix being the minimum over the shorter one met
  with the new tile's. At the last cloud tile the prefix is the whole cloud, and the block written out holds the
  nearest distances of the tile's keypoints.
-/
import proofs.«161584_j27642409517714_2_alg».proof.Proof.Gen.KernelIdeal.Frame
import proofs.«161584_j27642409517714_2_alg».proof.Proof.TileValues
import proofs.«161584_j27642409517714_2_alg».proof.Proof.VisitResults
import proofs.«161584_j27642409517714_2_alg».proof.Proof.NearestSpec
import Idealize.ShloMosaic.Lib.Pipeline.Value

noncomputable section

namespace Cert.KernelIdeal.Sweep

open Idealize.ShloMosaic Idealize.ShloMosaic.TcCoe Idealize.ShloMosaic.ValueIdx Idealize.SL.Sem
open Cert.KernelIdeal Cert.KernelIdeal.Gen Cert.Nearest
open Idealize.ShloMosaic.Pipeline (Dat)

variable (m : (ℓ : Loc nD τ sig) → Buf (Elt Ideal) ℓ)

/-- The keypoint array and the cloud array as the program finds them. -/
abbrev K (c : Dev nD) : SK.Idx → EReal := m ((c : Thread nD τ).loc main_arg0)
abbrev P (c : Dev nD) : SP.Idx → EReal := m ((c : Thread nD τ).loc main_arg1)

/-- Keypoint `r` of keypoint tile `i`, and cloud point `n` of cloud tile `j`, as positions in the whole arrays. -/
def kcol (i : ℕ) (r : Fin 256) : Fin 1024 := ⟨(256 * i + r.val) % 1024, Nat.mod_lt _ (by decide)⟩
def pcol (j : ℕ) (n : Fin 2048) : Fin 32768 := ⟨(2048 * j + n.val) % 32768, Nat.mod_lt _ (by decide)⟩

/-- Which block each window shows at point `t`: keypoint tile `t / 16`, cloud tile `t % 16`, output tile `t / 16`. -/
theorem idx_facts : ∀ t : Fin cfg0.N,
    win0_0.index t (0 : Fin 3) = 0 ∧ win0_0.index t (1 : Fin 3) = 0 ∧ win0_0.index t (2 : Fin 3) = t.val / 16
    ∧ win0_1.index t (0 : Fin 3) = 0 ∧ win0_1.index t (1 : Fin 3) = 0 ∧ win0_1.index t (2 : Fin 3) = t.val % 16
    ∧ win0_2.index t (0 : Fin 2) = 0 ∧ win0_2.index t (1 : Fin 2) = t.val / 16 :=
  (by decide +kernel : ∀ t : Fin grid0.N, _)

/-- The keypoint tile at point `t`, entry `(b, d, r)`, is the keypoint array at `(b, d, 256·(t/16) + r)`. -/
theorem ktile_at (c : Dev nD) (t : Fin cfg0.N) (b : Fin 4) (d : Fin 3) (r : Fin 256) :
    (iblk m c 0 t : Vec Ideal S4x3x256 .f32) (ix3 b d r) = K m c (ix3 b d (kcol (t.val / 16) r)) := by
  obtain ⟨e0, e1, e2, -⟩ := idx_facts t
  have hN : t.val < 64 := lt_of_lt_of_eq t.isLt (show cfg0.N = 64 from N_0)
  have hr : r.val < 256 := r.isLt
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 4 + 1 * b.val = b.val; rw [e0]; omega
  | ⟨1, _⟩ => show win0_0.index t (1 : Fin 3) * 3 + 1 * d.val = d.val; rw [e1]; omega
  | ⟨2, _⟩ => show win0_0.index t (2 : Fin 3) * 256 + 1 * r.val = (256 * (t.val / 16) + r.val) % 1024; rw [e2]; omega

/-- The cloud tile at point `t`, entry `(b, d, n)`, is the cloud array at `(b, d, 2048·(t%16) + n)`. -/
theorem ptile_at (c : Dev nD) (t : Fin cfg0.N) (b : Fin 4) (d : Fin 3) (n : Fin 2048) :
    (iblk m c 1 t : Vec Ideal S4x3x2048 .f32) (ix3 b d n) = P m c (ix3 b d (pcol (t.val % 16) n)) := by
  obtain ⟨-, -, -, e0, e1, e2, -⟩ := idx_facts t
  have hn : n.val < 2048 := n.isLt
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 3) * 4 + 1 * b.val = b.val; rw [e0]; omega
  | ⟨1, _⟩ => show win0_1.index t (1 : Fin 3) * 3 + 1 * d.val = d.val; rw [e1]; omega
  | ⟨2, _⟩ => show win0_1.index t (2 : Fin 3) * 2048 + 1 * n.val = (2048 * (t.val % 16) + n.val) % 32768; rw [e2]; omega

/-- The tile pair's cloud-dependent term is the whole arrays' at the tiles' positions. -/
theorem cloudTerm_tiles (c : Dev nD) (t : Fin cfg0.N) (b : Fin 4) (r : Fin 256) (n : Fin 2048) :
    TileValues.cloudTerm (iblk m c 0 t) (iblk m c 1 t) b r n
      = far (K m c) (P m c) b (kcol (t.val / 16) r) (pcol (t.val % 16) n) := by
  unfold TileValues.cloudTerm far
  simp only [ktile_at, ptile_at]

/-- One visit's update of a running minimum `acc`, in terms of the whole arrays. -/
theorem update_tiles (c : Dev nD) (t : Fin cfg0.N) (acc : Vec Ideal S4x256 .f32) (b : Fin 4) (r : Fin 256) :
    k0_pay2 (F := Ideal) (iblk m c 0 t) (iblk m c 1 t) acc (ix2 b r)
      = min (acc (ix2 b r)) (⨅ n : Fin 2048, far (K m c) (P m c) b (kcol (t.val / 16) r) (pcol (t.val % 16) n)) :=
  (TileValues.update_at (iblk m c 0 t) (iblk m c 1 t) acc b r).trans
    (congrArg (min (acc (ix2 b r))) (iInf_congr fun n => cloudTerm_tiles m c t b r n))

/-- At the first cloud tile the carried buffer ends at the update of `+∞`. -/
theorem acc_first (c : Dev nD) (t : Fin cfg0.N) (h0 : t.val % 16 = 0) (h1 : ¬t.val % 16 = 15) (b : Fin 4) (r : Fin 256) :
    (outsAt0 m c t.val t.isLt).2 (ix2 b r)
      = min ⊤ (⨅ k : Fin 2048, far (K m c) (P m c) b (kcol (t.val / 16) r) (pcol (t.val % 16) k)) := by
  rw [outsAt0_A m c t h0 h1]
  refine (congrFun (VisitResults.first_acc (F := Ideal) c (grid0.coords t) (ms0_0 t) (hs0_0 t) (ms0_1 t) (hs0_1 t) (ms0_2 t) (hs0_2 t) scM0_0 (Memref.isWhole_whole _) ((hcond0_0 t).mpr h0) (fun hh => h1 ((hcond0_1 t).mp hh)) (iblk m c 0 t) (iblk m c 1 t)) (ix2 b r)).trans ?_
  refine (update_tiles m c t (k0_pay1 (F := Ideal)) b r).trans ?_
  exact congrArg (fun z => min z (⨅ k : Fin 2048, far (K m c) (P m c) b (kcol (t.val / 16) r) (pcol (t.val % 16) k))) (TileValues.reset_at b r)

/-- At a later cloud tile it ends at the update of what the point before left. -/
theorem acc_next (c : Dev nD) (t : Fin cfg0.N) (h0 : ¬t.val % 16 = 0) (b : Fin 4) (r : Fin 256) :
    (outsAt0 m c t.val t.isLt).2 (ix2 b r)
      = min ((outsAt0 m c (t.val - 1) (Nat.lt_of_le_of_lt (Nat.sub_le _ _) t.isLt)).2 (ix2 b r))
          (⨅ k : Fin 2048, far (K m c) (P m c) b (kcol (t.val / 16) r) (pcol (t.val % 16) k)) := by
  by_cases h1 : t.val % 16 = 15
  · rw [outsAt0_C m c t h0 h1]
    refine (congrFun (VisitResults.last_acc (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2) (ix2 b r)).trans ?_
    exact update_tiles m c t (outsAt0 m c (t.val - 1) (Nat.lt_of_le_of_lt (Nat.sub_le _ _) t.isLt)).2 b r
  · rw [outsAt0_B m c t h0 h1]
    refine (congrFun (VisitResults.middle_acc (F := Ideal) c (grid0.coords t) (ms0_0 t) (hs0_0 t) (ms0_1 t) (hs0_1 t) (ms0_2 t) (hs0_2 t) scM0_0 (Memref.isWhole_whole _) (fun hh => h0 ((hcond0_0 t).mp hh)) (fun hh => h1 ((hcond0_1 t).mp hh)) (iblk m c 0 t) (iblk m c 1 t) (outsAt0 m c (t.val - 1) (Nat.lt_of_le_of_lt (Nat.sub_le _ _) t.isLt)).2) (ix2 b r)).trans ?_
    exact update_tiles m c t (outsAt0 m c (t.val - 1) (Nat.lt_of_le_of_lt (Nat.sub_le _ _) t.isLt)).2 b r

/-- The minimum of keypoint `256·i + r`'s cloud-dependent term over the first `L` cloud points. -/
def pref (c : Dev nD) (i L : ℕ) (b : Fin 4) (r : Fin 256) : EReal :=
  ⨅ q : Fin 32768, if q.val < L then far (K m c) (P m c) b (kcol i r) q else ⊤

theorem pref_zero (c : Dev nD) (i : ℕ) (b : Fin 4) (r : Fin 256) : pref m c i (2048 * 0) b r = ⊤ :=
  Cert.MinLaws.iInf_prefix_zero 2048 _

theorem pref_succ (c : Dev nD) (i j : ℕ) (hj : j < 16) (b : Fin 4) (r : Fin 256) :
    pref m c i (2048 * (j + 1)) b r
      = min (pref m c i (2048 * j) b r) (⨅ k : Fin 2048, far (K m c) (P m c) b (kcol i r) (pcol j k)) := by
  unfold pref
  refine (Cert.MinLaws.iInf_prefix_succ 2048 j (by omega) (fun q => far (K m c) (P m c) b (kcol i r) q)).trans ?_
  refine congrArg (min _) (iInf_congr fun k => ?_)
  refine congrArg (far (K m c) (P m c) b (kcol i r)) (Fin.ext ?_)
  show 2048 * j + k.val = (2048 * j + k.val) % 32768
  have := k.isLt; omega

/-- THE INVARIANT: after point `n` the carried buffer holds the minimum over the cloud points seen so far. -/
theorem acc_eq (c : Dev nD) (n : ℕ) : ∀ (h : n < cfg0.N) (b : Fin 4) (r : Fin 256),
    (outsAt0 m c n h).2 (ix2 b r) = pref m c (n / 16) (2048 * (n % 16 + 1)) b r := by
  induction n with
  | zero =>
    intro h b r
    refine (acc_first m c ⟨0, h⟩ rfl (by show ¬(0 : ℕ) % 16 = 15; decide) b r).trans ?_
    show min ⊤ (⨅ k : Fin 2048, far (K m c) (P m c) b (kcol (0 / 16) r) (pcol 0 k)) = pref m c (0 / 16) (2048 * (0 + 1)) b r
    rw [pref_succ m c (0 / 16) 0 (by decide) b r, pref_zero]
  | succ n ih =>
    intro h b r
    have hj : (n + 1) % 16 < 16 := Nat.mod_lt _ (by decide)
    by_cases h0 : (n + 1) % 16 = 0
    · refine (acc_first m c ⟨n + 1, h⟩ h0 (by show ¬(n + 1) % 16 = 15; omega) b r).trans ?_
      show min ⊤ (⨅ k : Fin 2048, far (K m c) (P m c) b (kcol ((n + 1) / 16) r) (pcol ((n + 1) % 16) k)) = _
      rw [pref_succ m c ((n + 1) / 16) ((n + 1) % 16) hj b r, h0, pref_zero]
    · have e := ih (Nat.lt_of_succ_lt h) b r
      have e1 : n / 16 = (n + 1) / 16 := by omega
      have e2 : n % 16 + 1 = (n + 1) % 16 := by omega
      rw [e1, e2] at e
      refine (acc_next m c ⟨n + 1, h⟩ h0 b r).trans ?_
      show min ((outsAt0 m c n (Nat.lt_of_succ_lt h)).2 (ix2 b r))
        (⨅ k : Fin 2048, far (K m c) (P m c) b (kcol ((n + 1) / 16) r) (pcol ((n + 1) % 16) k)) = _
      rw [e, pref_succ m c ((n + 1) / 16) ((n + 1) % 16) hj b r]

end Cert.KernelIdeal.Sweep

end
-- ==== Proof.OutBlock.lean ====
/-
  The block written out at the last cloud tile of a keypoint tile holds the nearest distances of that tile's keypoints:
  it is computed from the running minimum as the last visit leaves it, which by then ranges over the whole cloud.
-/
import proofs.«161584_j27642409517714_2_alg».proof.Proof.RunningMin

noncomputable section

namespace Cert.KernelIdeal.Sweep

open Idealize.ShloMosaic Idealize.ShloMosaic.TcCoe Idealize.ShloMosaic.ValueIdx Idealize.SL.Sem
open Cert.KernelIdeal Cert.KernelIdeal.Gen Cert.Nearest
open Idealize.ShloMosaic.Pipeline (Dat)

variable (m : (ℓ : Loc nD τ sig) → Buf (Elt Ideal) ℓ)

/-- From a running minimum that ranges over the whole cloud, the block written out holds the nearest distances. -/
theorem emit_nearest (c : Dev nD) (t : Fin cfg0.N) (h1 : t.val % 16 = 15) (b : Fin 4) (r : Fin 256) (acc : Vec Ideal S4x256 .f32)
    (hacc : acc (ix2 b r) = pref m c (t.val / 16) (2048 * (t.val % 16 + 1)) b r) :
    k0_pay3 (F := Ideal) (iblk m c 0 t) acc (ix2 b r) = nearestAt (K m c) (P m c) b (kcol (t.val / 16) r) := by
  refine (TileValues.emit_at (iblk m c 0 t) acc b r).trans ?_
  rw [hacc, h1]
  unfold nearestAt pref
  rw [Cert.MinLaws.iInf_prefix_all (2048 * (15 + 1)) (by norm_num)]
  simp only [ktile_at]

/-- At the last cloud tile of a keypoint tile the block written out is computed from the carried buffer as that visit
    leaves it, so it holds the nearest distances of keypoints `256·(t/16) … 256·(t/16) + 255`. -/
theorem out_at (c : Dev nD) (t : Fin cfg0.N) (h1 : t.val % 16 = 15) (b : Fin 4) (r : Fin 256) :
    (outsAt0 m c t.val t.isLt).1 (ix2 b r) = nearestAt (K m c) (P m c) b (kcol (t.val / 16) r) := by
  have h0 : ¬t.val % 16 = 0 := by omega
  have hacc := acc_eq m c t.val t.isLt b r
  have e2 : (outsAt0 m c t.val t.isLt).2 (ix2 b r)
      = k0_pay2 (F := Ideal) (iblk m c 0 t) (iblk m c 1 t) (outsAt0 m c (t.val - 1) (Nat.lt_of_le_of_lt (Nat.sub_le _ _) t.isLt)).2 (ix2 b r) := by
    rw [outsAt0_C m c t h0 h1]
    exact congrFun (VisitResults.last_acc (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2) (ix2 b r)
  rw [outsAt0_C m c t h0 h1]
  refine (congrFun (VisitResults.last_out (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2) (ix2 b r)).trans ?_
  exact emit_nearest m c t h1 b r (k0_pay2 (F := Ideal) (iblk m c 0 t) (iblk m c 1 t) (outsAt0 m c (t.val - 1) (Nat.lt_of_le_of_lt (Nat.sub_le _ _) t.isLt)).2) (e2.symm.trans hacc)

end Cert.KernelIdeal.Sweep

end
-- ==== Proof.MeanTail.lean ====
/-
  The last two host operations both programs end with: the mean of the [4,1024] array of nearest distances,
  as a sum from zero divided by 4096. Kept as one function of the array, so that the two programs are compared
  on the array alone.
-/
import Idealize.ShloMosaic.PureOps
import Idealize.ShloMosaic.PureOps.Ideal

noncomputable section

namespace Cert.Nearest

open Idealize.ShloMosaic

/-- Sum of all entries from `0.0`, divided by `4096.0`. -/
def meanOf (hr : (⟨2, ![4, 1024]⟩ : Shape).ReducesTo [0, 1] ⟨0, ![]⟩) (hs : 0 < (⟨0, ![]⟩ : Shape).numel)
    (D : FVec Ideal ⟨2, ![4, 1024]⟩ .f32) : FVec Ideal ⟨0, ![]⟩ .f32 :=
  Host.divf (Host.reduceAdd D (constant (F := Ideal) ⟨0, ![]⟩ .f32 0x00000000#32) hr hs)
    (constant (F := Ideal) ⟨0, ![]⟩ .f32 0x45800000#32)

end Cert.Nearest

end
-- ==== Proof.ResultArray.lean ====
/-
  The kernel program's result, read off its run.
  The result array of the grid is filled by the sixteen-th visit of each keypoint tile: its block `t / 16` then holds the
  nearest distances of that tile's keypoints, and the four such blocks tile the [4,1024] array. The two host operations
  after the grid take the mean of that array.
-/
import proofs.«161584_j27642409517714_2_alg».proof.Proof.OutBlock
import proofs.«161584_j27642409517714_2_alg».proof.Proof.MeanTail
import Idealize.ShloMosaic.Lib.Pipeline.Value
import Idealize.ShloMosaic.Lib.StableHlo.Run

noncomputable section

namespace Cert.KernelIdeal.Sweep

open Idealize.ShloMosaic Idealize.ShloMosaic.TcCoe Idealize.ShloMosaic.ValueIdx Idealize.SL.Sem
open Cert.KernelIdeal Cert.KernelIdeal.Gen Cert.Nearest
open Idealize.ShloMosaic.Pipeline (Dat)

variable (m : (ℓ : Loc nD τ sig) → Buf (Elt Ideal) ℓ) (ρ : Dev nD → PrngReg)

/-- The array of nearest distances, as contents of the grid's result array. -/
abbrev distances (c : Dev nD) : Buf (Elt Ideal) ((c : Thread nD τ).loc main_v0) := nearest (K m c) (P m c)

/-- What a write-back writes is the block of the array of nearest distances it is written to. -/
theorem flushed_eq (c : Dev nD) (t : Fin cfg0.N) (hf : (cfg0.win 2).flush t = true) :
    (dats m 0 c).flushed 2 t = ((cfg0.win 2).blk t).view.read (Elt Ideal) (distances m c) := by
  have h1 : t.val % 16 = 15 := (flush0_2 t).mp hf
  obtain ⟨-, -, -, -, -, -, e0, e1⟩ := idx_facts t
  have hN : t.val < 64 := lt_of_lt_of_eq t.isLt (show cfg0.N = 64 from N_0)
  show (cfg0.win 2).cut (grid0.coords t) ((dats m 0 c).after 2 t) = _
  rw [after0_2]
  have key : ∀ (b : Fin 4) (r : Fin 256), (outsAt0 m c t.val t.isLt).1 (ix2 b r)
      = ((cfg0.win 2).blk t).view.read (Elt Ideal) (distances m c) (ix2 b r) := fun b r => by
    rw [out_at m c t h1 b r, View.read_apply]
    have he : ((cfg0.win 2).blk t).view.emb (ix2 b r) = ix2 b (kcol (t.val / 16) r) := by
      funext a; apply Fin.ext
      match a with
      | ⟨0, _⟩ => show win0_2.index t (0 : Fin 2) * 4 + 1 * b.val = b.val; rw [e0]; omega
      | ⟨1, _⟩ => show win0_2.index t (1 : Fin 2) * 256 + 1 * r.val = (256 * (t.val / 16) + r.val) % 1024; rw [e1]; have := r.isLt; omega
    rw [he]
    rfl
  funext y
  show (outsAt0 m c t.val t.isLt).1 y = View.read (Elt Ideal) ((cfg0.win 2).blk t).view (distances m c) y
  have hy := eq_ix2 y
  rw [hy]
  exact key (y 0) (y 1)

/-- Every entry of the array lies in the block of some write-back: entry `(b, mc)` in the block written at the last cloud
    tile of keypoint tile `mc / 256`. -/
theorem covered (c : Dev nD) (i : S4x1024.Idx) :
    ∃ t : Fin cfg0.N, (cfg0.win 2).flush t = true ∧ i ∈ ((cfg0.win 2).blk t).view.set := by
  have hi0 : (i 0).val < 4 := (i 0).isLt
  have hi1 : (i 1).val < 1024 := (i 1).isLt
  have hN : cfg0.N = 64 := N_0
  obtain ⟨t, ht⟩ : ∃ t : Fin cfg0.N, t.val = 16 * ((i 1).val / 256) + 15 := ⟨⟨16 * ((i 1).val / 256) + 15, by omega⟩, rfl⟩
  obtain ⟨-, -, -, -, -, -, e0, e1⟩ := idx_facts t
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t (0 : Fin 2) * 4 ≤ (i 0).val ∧ (i 0).val < win0_2.index t (0 : Fin 2) * 4 + 4; rw [e0]; omega
  | ⟨1, _⟩ => show win0_2.index t (1 : Fin 2) * 256 ≤ (i 1).val ∧ (i 1).val < win0_2.index t (1 : Fin 2) * 256 + 256; rw [e1, ht]; omega

/-- So after the grid the result array holds the nearest distances. -/
theorem final (c : Dev nD) : (dats m 0 c).arrAt 2 cfg0.N = distances m c :=
  (dats m 0 c).arrAt_eq_of_cover 2 (distances m c) (flushed_eq m c) (covered c)

/-- The host operations after the grid leave the mean of that array in the program's result. -/
theorem tail_eq (c : Dev nD) :
    Pipeline.afterTail₀ cfgs (dats m) 0 (V0 m) [hostOps1] c main_v2
      = meanOf reducesTo_S4x1024_S_d0_1 h_S_ (distances m c) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = distances m c :=
    (Pipeline.withArrays_arr spec0 launch0.win.arr_inj c _ _ 2).trans (final m c)
  rw [e]
  rfl

/-- The kernel program's run, read: its result is the mean of the nearest distances, its arguments are unchanged. -/
theorem run : θ_run defs (onTc (τ := τ) (main (F := Ideal))) ⟨m, fun _ => 0, ρ⟩ fun r => ∀ c : Dev nD,
      r.2.mem ((c : Thread nD τ).loc main_v2) = meanOf reducesTo_S4x1024_S_d0_1 h_S_ (distances m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Sweep

end
-- ==== Proof.ReferenceValue.lean ====
/-
  The reference program's result, read off its run: for each keypoint the distances to every cloud point are formed
  (`√(max ((|k|² + |p|²) - 2·⟨k, p⟩) 0)`, the squared lengths and the inner product as sums over the three
  coordinates) and their minimum over the cloud is taken from `+∞`; the result is the mean of these minima.
-/
import proofs.«161584_j27642409517714_2_alg».proof.Proof.Gen.ReferenceIdeal.Read
import proofs.«161584_j27642409517714_2_alg».proof.Proof.NearestSpec
import proofs.«161584_j27642409517714_2_alg».proof.Proof.MeanTail
import Idealize.ShloMosaic.PureOps.Reduce

noncomputable section

namespace Cert.ReferenceIdeal.Nearest

open Cert.ReferenceIdeal Cert.ReferenceIdeal.Gen Cert.ReferenceIdeal.Read Cert.Nearest
open Idealize.ShloMosaic Idealize.ShloMosaic.ValueIdx

/-- The distance from keypoint `mc` to cloud point `q` as the reference forms it. -/
theorem dist_at (x0 : (⟨S4x3x1024, .f32⟩ : BufTy).Contents (Elt Ideal)) (x1 : (⟨S4x3x32768, .f32⟩ : BufTy).Contents (Elt Ideal))
    (b : Fin 4) (mc : Fin 1024) (q : Fin 32768) :
    val_main_v15 (F := Ideal) x0 x1 (ix3 b mc q)
      = Ideal.sqrt (max
          (((Ideal.ofBits .f32 0x00000000#32 + ∑ d : Fin 3, x0 (ix3 b d mc) * x0 (ix3 b d mc))
              + (Ideal.ofBits .f32 0x00000000#32 + ∑ d : Fin 3, x1 (ix3 b d q) * x1 (ix3 b d q)))
            - Ideal.ofBits .f32 0x40000000#32 * ∑ d : Fin 3, x0 (ix3 b d mc) * x1 (ix3 b d q))
          (Ideal.ofBits .f32 0x00000000#32)) := by
  have e1 : ∀ k : Fin 3, idx_main_v1 (idx_main_v5 (idx_main_v7 (ix3 b mc q))) k = ix3 b k mc := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b mc q))) k = ix3 b k q := fun k =>
    funext fun a => Fin.ext (by match a with | ⟨0, _⟩ => rfl | ⟨1, _⟩ => rfl | ⟨2, _⟩ => rfl)
  have e3 : ∀ k : Fin 3, lidx_main_v4 (ix3 b mc q) k = ix3 b k mc := fun k =>
    funext fun a => Fin.ext (by match a with | ⟨0, _⟩ => rfl | ⟨1, _⟩ => rfl | ⟨2, _⟩ => rfl)
  have e4 : ∀ k : Fin 3, ridx_main_v4 (ix3 b mc q) k = ix3 b k q := fun k =>
    funext fun a => Fin.ext (by match a with | ⟨0, _⟩ => rfl | ⟨1, _⟩ => rfl | ⟨2, _⟩ => rfl)
  rw [val_main_v15_apply, val_main_v14_apply, val_main_v13_apply, val_main_cst_2_apply, val_main_v12_apply,
    val_main_v9_apply, val_main_v7_apply, val_main_v5_apply, val_main_v1_apply, val_main_cst_apply,
    val_main_v8_apply, val_main_v6_apply, val_main_v3_apply, val_main_cst_0_apply,
    val_main_v11_apply, val_main_v10_apply, val_main_cst_1_apply, val_main_v4_apply]
  simp only [val_main_v0_apply, val_main_v2_apply, e1, e2, e3, e4, Ideal.hostUnary_sqrt_def, Ideal.maximumf_def,
    Ideal.subf_def, Ideal.addf_def, Ideal.mulf_def, Ideal.ofBits_def]

/-- The reference's array of minima is `directAt` of the two arguments. -/
theorem minima_eq (x0 : (⟨S4x3x1024, .f32⟩ : BufTy).Contents (Elt Ideal)) (x1 : (⟨S4x3x32768, .f32⟩ : BufTy).Contents (Elt Ideal)) :
    val_main_v16 (F := Ideal) x0 x1 = fun j => directAt x0 x1 (j 0) (j 1) := by
  funext j
  obtain ⟨b, mc, rfl⟩ : ∃ (b : Fin 4) (mc : Fin 1024), j = ix2 b mc := ⟨j 0, j 1, eq_ix2 j⟩
  show val_main_v16 (F := Ideal) x0 x1 (ix2 b mc) = directAt x0 x1 b mc
  unfold val_main_v16 directAt
  have hR : S4x1024x32768.Reduces [2] S4x1024 := by decide
  rw [Host.reduce_eq_fold_single FloatOps.minimumf _ _ reducesTo_S4x1024x32768_S4x1024_d2 hR h_S_ (ix2 b mc)]
  have e1 : (val_main_v15 (F := Ideal) x0 x1 ∘ hR.lift (ix2 b mc)) = fun q : Fin 32768 => val_main_v15 (F := Ideal) x0 x1 (ix3 b mc q) :=
    funext fun q => congrArg (val_main_v15 (F := Ideal) x0 x1) (funext fun c => Fin.ext (by
      match c with | ⟨0, _⟩ => rfl | ⟨1, _⟩ => rfl | ⟨2, _⟩ => rfl))
  show Finset.fold min (Ideal.ofBits .f32 0x7F800000#32) (val_main_v15 (F := Ideal) x0 x1 ∘ hR.lift (ix2 b mc)) (Finset.univ : Finset (Fin 32768)) = _
  rw [e1, Cert.FloatWords.ofBits_inf]
  exact (Cert.MinLaws.fold_min_top (ι := Fin 32768) _).trans (iInf_congr fun q => dist_at x0 x1 b mc q)

/-- The reference's result is the mean of that array. -/
theorem result_eq (x0 : (⟨S4x3x1024, .f32⟩ : BufTy).Contents (Elt Ideal)) (x1 : (⟨S4x3x32768, .f32⟩ : BufTy).Contents (Elt Ideal)) :
    val_main_v18 (F := Ideal) x0 x1 = meanOf reducesTo_S4x1024_S_d0_1 h_S_ (fun j => directAt x0 x1 (j 0) (j 1)) :=
  congrArg (meanOf reducesTo_S4x1024_S_d0_1 h_S_) (minima_eq x0 x1)

end Cert.ReferenceIdeal.Nearest

end
-- ==== Proof.RealEntries.lean ====
/-
  Under the precondition every entry of both argument arrays is a real number: the precondition says, entry by
  entry, `|x| < +∞`, and on the extended reals `max x (-x) < ⊤` excludes both `⊤` and `⊥`.
-/
import proofs.«161584_j27642409517714_2_alg».proof.Pre_finite_inputs
import proofs.«161584_j27642409517714_2_alg».proof.Proof.LibFloatWords
import Idealize.ShloMosaic.Lib.ReduceAll
import Idealize.ShloMosaic.Lib.ValueIdx
import Idealize.ShloMosaic.PureOps.Ideal

noncomputable section

namespace Cert.Pre_finite_inputs.Entries

open Idealize.ShloMosaic Cert.Pre_finite_inputs Cert.Pre_finite_inputs.Facts

instance : Subsingleton S_.Idx := ⟨fun a b => funext fun d => d.elim0⟩

/-- An extended real whose absolute value is below `+∞` is neither infinity. -/
theorem real_of_abs_lt (x : EReal) (h : Ideal.cmp .olt (max x (-x)) (Ideal.ofBits .f32 0x7F800000#32) = 1#1) :
    x ≠ ⊤ ∧ x ≠ ⊥ := by
  rw [Cert.FloatWords.ofBits_inf] at h
  have hlt : max x (-x) < ⊤ := by
    by_contra hn
    simp [Ideal.cmp, hn] at h
  constructor
  · rintro rfl; simp at hlt
  · rintro rfl; simp at hlt

variable [Cert.Pre_finite_inputs.Facts]

/-- The precondition, read entry by entry. -/
theorem entries_real (x0 : FVec Ideal S4x3x1024 .f32) (x1 : FVec Ideal S4x3x32768 .f32)
    (h : Cert.Pre_finite_inputs.fn (F := Ideal) x0 x1 = fun _ => 1#1) :
    (∀ i, x0 i ≠ ⊤ ∧ x0 i ≠ ⊥) ∧ (∀ i, x1 i ≠ ⊤ ∧ x1 i ≠ ⊥) := by
  have h0 := congrFun h ValueIdx.ix0
  dsimp only [Cert.Pre_finite_inputs.fn] at h0
  obtain ⟨ha, hb⟩ := IntOp.andi_eq_one.1 h0
  refine ⟨fun i => real_of_abs_lt (x0 i) ?_, fun i => real_of_abs_lt (x1 i) ?_⟩
  · exact Host.reduce_andi_all _ _ _ _ _ ha i
  · exact Host.reduce_andi_all _ _ _ _ _ hb i

end Cert.Pre_finite_inputs.Entries

end
-- ==== Proof.lean ====
/-
  The mean distance from each of 4 × 1024 keypoints to its nearest point in a cloud of 32768 points.

  The kernel sweeps a 4 × 16 grid: for each keypoint tile (256 keypoints) it visits the sixteen cloud tiles
  (2048 points each) and keeps, per keypoint, the running minimum of `|p|² + ⟨-2·k, p⟩`; after the last cloud
  tile it adds `|k|²`, clamps at zero, takes the square root and writes the tile's 4 × 256 distances out. The host then
  averages the [4,1024] array. The reference forms every distance `√(max ((|k|² + |p|²) - 2·⟨k, p⟩) 0)`,
  takes the minimum over the cloud and averages.

  On the extended reals the two agree when every input entry is a real number (the precondition): the minimum
  over the cloud taken tile by tile is the minimum over the cloud; `x ↦ √(max (x + |k|²) 0)` is monotone, so it
  commutes with that minimum; and for reals `|p|² + ⟨-2·k, p⟩ + |k|² = (|k|² + |p|²) - 2·⟨k, p⟩`. The final mean is
  the same function of the array of minima on both sides and is never opened.

  Modules: LibMinLaws (minima, monotone maps), LibFloatWords (three float words), NearestSpec (the two
  arrangements and their equality), MeanTail (the mean), TileValues (one visit's arithmetic at an index),
  VisitResults (what each kind of visit leaves), RunningMin (the invariant across the grid), OutBlock and
  ResultArray (the kernel program's result), ReferenceValue (the reference's result), RealEntries (the
  precondition entry by entry).
-/
import proofs.«161584_j27642409517714_2_alg».proof.Defs
import proofs.«161584_j27642409517714_2_alg».proof.Proof.Gen.Kernel
import proofs.«161584_j27642409517714_2_alg».proof.Proof.Gen.Kernel.Skeleton
import proofs.«161584_j27642409517714_2_alg».proof.Proof.Gen.Kernel.Launch
import proofs.«161584_j27642409517714_2_alg».proof.Proof.Gen.Kernel.Points
import proofs.«161584_j27642409517714_2_alg».proof.Proof.Gen.Kernel.Frame
import proofs.«161584_j27642409517714_2_alg».proof.Proof.Gen.KernelIdeal
import proofs.«161584_j27642409517714_2_alg».proof.Proof.Gen.KernelIdeal.Skeleton
import proofs.«161584_j27642409517714_2_alg».proof.Proof.Gen.KernelIdeal.Launch
import proofs.«161584_j27642409517714_2_alg».proof.Proof.Gen.KernelIdeal.Points
import proofs.«161584_j27642409517714_2_alg».proof.Proof.Gen.KernelIdeal.Frame
import proofs.«161584_j27642409517714_2_alg».proof.Proof.Gen.ReferenceIdeal
import proofs.«161584_j27642409517714_2_alg».proof.Proof.Gen.ReferenceIdeal.Run
import proofs.«161584_j27642409517714_2_alg».proof.Proof.Gen.ReferenceIdeal.Read
import proofs.«161584_j27642409517714_2_alg».proof.Proof.Gen.Pre_finite_inputs
import proofs.«161584_j27642409517714_2_alg».proof.Proof.ResultArray
import proofs.«161584_j27642409517714_2_alg».proof.Proof.ReferenceValue
import proofs.«161584_j27642409517714_2_alg».proof.Proof.RealEntries
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- Both programs end at the mean of the array of nearest distances: the kernel's array is `nearest` of the arguments, the
    reference's is `directAt` of them, and with real entries the two are one function. -/
theorem algebraic : Cert.algebraic_KernelIdeal_ReferenceIdeal := by
  intro m ρ m' ρ' hpre hagree
  refine ⟨fun c => Cert.Nearest.meanOf Cert.KernelIdeal.Facts₀.reducesTo_S4x1024_S_d0_1 Cert.KernelIdeal.Facts₀.h_S_
      (Cert.KernelIdeal.Sweep.distances m c), Cert.KernelIdeal.Sweep.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.Nearest.result_eq, (hagree c).1, (hagree c).2]
  obtain ⟨hK, hP⟩ := Cert.Pre_finite_inputs.Entries.entries_real _ _ (hpre c)
  refine congrArg (Cert.Nearest.meanOf _ _) (funext fun j => ?_)
  exact (Cert.Nearest.nearestAt_eq_directAt _ _ hK hP (j 0) (j 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
